-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S3072x1024 .f32) (main_arg2 : FVec F S1024x1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S4x4096x3072 : Shape := ⟨3, ![4, 4096, 3072]⟩
abbrev S4x16x4096x64 : Shape := ⟨4, ![4, 16, 4096, 64]⟩
abbrev S4x4096x16x64 : Shape := ⟨4, ![4, 4096, 16, 64]⟩
abbrev S4x4096x16x16 : Shape := ⟨4, ![4, 4096, 16, 16]⟩
abbrev S_ : Shape := ⟨0, ![]⟩
abbrev S4x4096x16 : Shape := ⟨3, ![4, 4096, 16]⟩
abbrev S4x4096x16x1 : Shape := ⟨4, ![4, 4096, 16, 1]⟩
abbrev S1x1024 : Shape := ⟨2, ![1, 1024]⟩

abbrev nBuf : Space → Nat
  | .hbm => 45
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S3072x1024, .bf16⟩
  | .hbm, ⟨6, _⟩ => ⟨S16384x3072, .bf16⟩
  | .hbm, ⟨7, _⟩ => ⟨S4x4096x3072, .bf16⟩
  | .hbm, ⟨8, _⟩ => ⟨S4x4096x1024, .bf16⟩
  | .hbm, ⟨9, _⟩ => ⟨S4x4096x1024, .bf16⟩
  | .hbm, ⟨10, _⟩ => ⟨S4x4096x1024, .bf16⟩
  | .hbm, ⟨11, _⟩ => ⟨S4x16x4096x64, .bf16⟩
  | .hbm, ⟨12, _⟩ => ⟨S4x4096x16x64, .bf16⟩
  | .hbm, ⟨13, _⟩ => ⟨S4x16x4096x64, .bf16⟩
  | .hbm, ⟨14, _⟩ => ⟨S4x4096x16x64, .bf16⟩
  | .hbm, ⟨15, _⟩ => ⟨S4x16x4096x64, .bf16⟩
  | .hbm, ⟨16, _⟩ => ⟨S4x4096x16x64, .bf16⟩
  | .hbm, ⟨17, _⟩ => ⟨S4x4096x16x16, .f32⟩
  | .hbm, ⟨18, _⟩ => ⟨S_, .f32⟩
  | .hbm, ⟨19, _⟩ => ⟨S4x4096x16x16, .f32⟩
  | .hbm, ⟨20, _⟩ => ⟨S4x4096x16x16, .f32⟩
  | .hbm, ⟨21, _⟩ => ⟨S_, .f32⟩
  | .hbm, ⟨22, _⟩ => ⟨S4x4096x16, .f32⟩
  | .hbm, ⟨23, _⟩ => ⟨S_, .f32⟩
  | .hbm, ⟨24, _⟩ => ⟨S4x4096x16, .f32⟩
  | .hbm, ⟨25, _⟩ => ⟨S4x4096x16, .f32⟩
  | .hbm, ⟨26, _⟩ => ⟨S4x4096x16x1, .f32⟩
  | .hbm, ⟨27, _⟩ => ⟨S4x4096x16x16, .f32⟩
  | .hbm, ⟨28, _⟩ => ⟨S4x4096x16x16, .f32⟩
  | .hbm, ⟨29, _⟩ => ⟨S4x4096x16x16, .f32⟩
  | .hbm, ⟨30, _⟩ => ⟨S_, .f32⟩
  | .hbm, ⟨31, _⟩ => ⟨S4x4096x16, .f32⟩
  | .hbm, ⟨32, _⟩ => ⟨S4x4096x16x1, .f32⟩
  | .hbm, ⟨33, _⟩ => ⟨S4x4096x16x16, .f32⟩
  | .hbm, ⟨34, _⟩ => ⟨S4x4096x16x16, .f32⟩
  | .hbm, ⟨35, _⟩ => ⟨S4x4096x16x16, .bf16⟩
  | .hbm, ⟨36, _⟩ => ⟨S4x4096x16x64, .f32⟩
  | .hbm, ⟨37, _⟩ => ⟨S4x4096x16x64, .bf16⟩
  | .hbm, ⟨38, _⟩ => ⟨S4x16x4096x64, .bf16⟩
  | .hbm, ⟨39, _⟩ => ⟨S4x4096x1024, .bf16⟩
  | .hbm, ⟨40, _⟩ => ⟨S16384x1024, .bf16⟩
  | .hbm, ⟨41, _⟩ => ⟨S1024x1024, .bf16⟩
  | .hbm, ⟨42, _⟩ => ⟨S1x1024, .f32⟩
  | .hbm, ⟨43, _⟩ => ⟨S16384x1024, .f32⟩
  | .hbm, ⟨44, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x4096x1024_S16384x1024 : S4x4096x1024.ShapeCasts S16384x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S4x4096x3072 : S16384x3072.ShapeCasts S4x4096x3072
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x16x4096x64 : S4x4096x1024.ShapeCasts S4x16x4096x64
  transposes_S4x16x4096x64_S4x4096x16x64_0_2_1_3 : S4x16x4096x64.Transposes [0, 2, 1, 3] S4x4096x16x64
  bcast_S_S4x4096x16x16 : S_.BroadcastsInDim S4x4096x16x16 (![] : Fin 0 → Fin S4x4096x16x16.rank)
  reducesTo_S4x4096x16x16_S4x4096x16_d3 : S4x4096x16x16.ReducesTo [3] S4x4096x16
  h_S_ : 0 < S_.numel
  bcast_S_S4x4096x16 : S_.BroadcastsInDim S4x4096x16 (![] : Fin 0 → Fin S4x4096x16.rank)
  bcast_S4x4096x16_S4x4096x16x1_0_1_2 : S4x4096x16.BroadcastsInDim S4x4096x16x1 (![0, 1, 2] : Fin 3 → Fin S4x4096x16x1.rank)
  bcast_S4x4096x16x1_S4x4096x16x16_0_1_2_3 : S4x4096x16x1.BroadcastsInDim S4x4096x16x16 (![0, 1, 2, 3] : Fin 4 → Fin S4x4096x16x16.rank)
  transposes_S4x4096x16x64_S4x16x4096x64_0_2_1_3 : S4x4096x16x64.Transposes [0, 2, 1, 3] S4x16x4096x64
  shapeCasts_S4x16x4096x64_S4x4096x1024 : S4x16x4096x64.ShapeCasts S4x4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S4x4096x1024 : S16384x1024.ShapeCasts S4x4096x1024
  dot_S512x1024_S3072x1024_S512x3072_1_1_0_0_n_n_wf : DotDims.WF S512x1024 S3072x1024 S512x3072 [1] [1] [0] [0] [] []
  dot_S4x4096x16x64_S4x4096x16x64_S4x4096x16x16_3_3_2_2_01_01_wf : DotDims.WF S4x4096x16x64 S4x4096x16x64 S4x4096x16x16 [3] [3] [2] [2] [0, 1] [0, 1]
  dot_S4x4096x16x16_S4x4096x16x64_S4x4096x16x64_3_2_2_3_01_01_wf : DotDims.WF S4x4096x16x16 S4x4096x16x64 S4x4096x16x64 [3] [2] [2] [3] [0, 1] [0, 1]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S16384x3072.size a
  hwx0_2 : ∀ i : grid0.Coords, EltTy.bits .bf16 = 32 ∨ (Rect.block (s := S16384x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .bf16 = 32 ∨ (Rect.block (s := S16384x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .f32 = 32 ∨ (Rect.block (s := S16384x1024) S512x1024.size (cc1_transform_3 i) (hinb1_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S4x4096x16x64_S4x4096x16x64_S4x4096x16x16_3_3_2_2_01_01 : DotDims S4x4096x16x64 S4x4096x16x64 S4x4096x16x16 where
  lhsContracting := [3]
  rhsContracting := [3]
  lhsNonContracting := [2]
  rhsNonContracting := [2]
  lhsBatch := [0, 1]
  rhsBatch := [0, 1]
  wf := dot_S4x4096x16x64_S4x4096x16x64_S4x4096x16x16_3_3_2_2_01_01_wf
def dot_S4x4096x16x16_S4x4096x16x64_S4x4096x16x64_3_2_2_3_01_01 : DotDims S4x4096x16x16 S4x4096x16x64 S4x4096x16x64 where
  lhsContracting := [3]
  rhsContracting := [2]
  lhsNonContracting := [2]
  rhsNonContracting := [3]
  lhsBatch := [0, 1]
  rhsBatch := [0, 1]
  wf := dot_S4x4096x16x16_S4x4096x16x64_S4x4096x16x64_3_2_2_3_01_01_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S4x4096x3072 : Shape := ⟨3, ![4, 4096, 3072]⟩
abbrev S4x16x4096x64 : Shape := ⟨4, ![4, 16, 4096, 64]⟩
abbrev S4x4096x16x64 : Shape := ⟨4, ![4, 4096, 16, 64]⟩
abbrev S_ : Shape := ⟨0, ![]⟩
abbrev S4x4096x16x16 : Shape := ⟨4, ![4, 4096, 16, 16]⟩
abbrev S4x4096x16 : Shape := ⟨3, ![4, 4096, 16]⟩
abbrev S4x4096x16x1 : Shape := ⟨4, ![4, 4096, 16, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x4096x3072, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x16x4096x64, .f32⟩
  | .hbm, ⟨9, _⟩ => ⟨S4x4096x16x64, .f32⟩
  | .hbm, ⟨10, _⟩ => ⟨S4x16x4096x64, .f32⟩
  | .hbm, ⟨11, _⟩ => ⟨S4x4096x16x64, .f32⟩
  | .hbm, ⟨12, _⟩ => ⟨S4x16x4096x64, .f32⟩
  | .hbm, ⟨13, _⟩ => ⟨S4x4096x16x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x4096x16x16, .f32⟩
  | .hbm, ⟨19, _⟩ => ⟨S4x4096x16x16, .f32⟩
  | .hbm, ⟨20, _⟩ => ⟨S4x4096x16x16, .f32⟩
  | .hbm, ⟨21, _⟩ => ⟨S_, .f32⟩
  | .hbm, ⟨22, _⟩ => ⟨S4x4096x16, .f32⟩
  | .hbm, ⟨23, _⟩ => ⟨S_, .f32⟩
  | .hbm, ⟨24, _⟩ => ⟨S4x4096x16, .f32⟩
  | .hbm, ⟨25, _⟩ => ⟨S4x4096x16, .f32⟩
  | .hbm, ⟨26, _⟩ => ⟨S4x4096x16x1, .f32⟩
  | .hbm, ⟨27, _⟩ => ⟨S4x4096x16x16, .f32⟩
  | .hbm, ⟨28, _⟩ => ⟨S4x4096x16x16, .f32⟩
  | .hbm, ⟨29, _⟩ => ⟨S4x4096x16x16, .f32⟩
  | .hbm, ⟨30, _⟩ => ⟨S_, .f32⟩
  | .hbm, ⟨31, _⟩ => ⟨S4x4096x16, .f32⟩
  | .hbm, ⟨32, _⟩ => ⟨S4x4096x16x1, .f32⟩
  | .hbm, ⟨33, _⟩ => ⟨S4x4096x16x16, .f32⟩
  | .hbm, ⟨34, _⟩ => ⟨S4x4096x16x16, .f32⟩
  | .hbm, ⟨35, _⟩ => ⟨S4x4096x16x64, .f32⟩
  | .hbm, ⟨36, _⟩ => ⟨S4x16x4096x64, .f32⟩
  | .hbm, ⟨37, _⟩ => ⟨S4x4096x1024, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x16x4096x64 : S4x4096x1024.ShapeCasts S4x16x4096x64
  transposes_S4x16x4096x64_S4x4096x16x64_0_2_1_3 : S4x16x4096x64.Transposes [0, 2, 1, 3] S4x4096x16x64
  bcast_S_S4x4096x16x16 : S_.BroadcastsInDim S4x4096x16x16 (![] : Fin 0 → Fin S4x4096x16x16.rank)
  reducesTo_S4x4096x16x16_S4x4096x16_d3 : S4x4096x16x16.ReducesTo [3] S4x4096x16
  h_S_ : 0 < S_.numel
  bcast_S_S4x4096x16 : S_.BroadcastsInDim S4x4096x16 (![] : Fin 0 → Fin S4x4096x16.rank)
  bcast_S4x4096x16_S4x4096x16x1_0_1_2 : S4x4096x16.BroadcastsInDim S4x4096x16x1 (![0, 1, 2] : Fin 3 → Fin S4x4096x16x1.rank)
  bcast_S4x4096x16x1_S4x4096x16x16_0_1_2_3 : S4x4096x16x1.BroadcastsInDim S4x4096x16x16 (![0, 1, 2, 3] : Fin 4 → Fin S4x4096x16x16.rank)
  transposes_S4x4096x16x64_S4x16x4096x64_0_2_1_3 : S4x4096x16x64.Transposes [0, 2, 1, 3] S4x16x4096x64
  shapeCasts_S4x16x4096x64_S4x4096x1024 : S4x16x4096x64.ShapeCasts S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S3072x1024_S4x4096x3072_2_1_01_0_n_n_wf : DotDims.WF S4x4096x1024 S3072x1024 S4x4096x3072 [2] [1] [0, 1] [0] [] []
  dot_S4x4096x16x64_S4x4096x16x64_S4x4096x16x16_3_3_2_2_01_01_wf : DotDims.WF S4x4096x16x64 S4x4096x16x64 S4x4096x16x16 [3] [3] [2] [2] [0, 1] [0, 1]
  dot_S4x4096x16x16_S4x4096x16x64_S4x4096x16x64_3_2_2_3_01_01_wf : DotDims.WF S4x4096x16x16 S4x4096x16x64 S4x4096x16x64 [3] [2] [2] [3] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x16x64_S4x4096x16x64_S4x4096x16x16_3_3_2_2_01_01 : DotDims S4x4096x16x64 S4x4096x16x64 S4x4096x16x16 where
  lhsContracting := [3]
  rhsContracting := [3]
  lhsNonContracting := [2]
  rhsNonContracting := [2]
  lhsBatch := [0, 1]
  rhsBatch := [0, 1]
  wf := dot_S4x4096x16x64_S4x4096x16x64_S4x4096x16x16_3_3_2_2_01_01_wf
def dot_S4x4096x16x16_S4x4096x16x64_S4x4096x16x64_3_2_2_3_01_01 : DotDims S4x4096x16x16 S4x4096x16x64 S4x4096x16x64 where
  lhsContracting := [3]
  rhsContracting := [2]
  lhsNonContracting := [2]
  rhsNonContracting := [3]
  lhsBatch := [0, 1]
  rhsBatch := [0, 1]
  wf := dot_S4x4096x16x16_S4x4096x16x64_S4x4096x16x64_3_2_2_3_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.KernelRun.lean ====
/-
  The kernel program's whole run with its RESULT named: from any memory with zero counters every weakly fair
  execution of the program terminates without a fault, the four argument arrays end as launched, and the result
  array ends at the contents the last boundary of the program's segments assigns to it -- two host stretches around
  and between the two pipelined matrix products, then the final re-laying. The contents at each boundary are the
  fold the frame certificate states; here the final state is read at the result buffer as well as at the arguments.
-/
import proofs.«118528_j4767413698818_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v36) = W5 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v36 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Whole

end
-- ==== Proof.LibDense.lean ====
/-
  The pieces of a dense layer, read one entry at a time, on the extended reals.

  * `mmT x w` is the product of `x : [M, K]` with the TRANSPOSE of `w : [N, K]`: entry (i, j) is the sum over k of
    x (i, k) · w (j, k). A contraction whose dimension numbers contract the second axis of both operands denotes
    exactly this sum (`sum_contr_eq_mmT`).
  * `biasRelu a b` adds the row `b : [1, K]` to every row of `a : [M, K]` and takes the maximum with a threshold `z`;
    `addRow a b` only adds the row.
-/
import Idealize.ShloMosaic.PureOps.Ideal.Laws
import Idealize.ShloMosaic.Lib.ValueIdx

noncomputable section

namespace Cert.LibDense

open Idealize.ShloMosaic Idealize.ShloMosaic.ValueIdx

/-- `x · wᵀ`: entry (i, j) is the sum over k of x (i, k) · w (j, k). -/
def mmT {M K N : Nat} (x : (⟨2, ![M, K]⟩ : Shape).Idx → EReal) (w : (⟨2, ![N, K]⟩ : Shape).Idx → EReal) :
    (⟨2, ![M, N]⟩ : Shape).Idx → EReal :=
  fun i => ∑ k : Fin K, x (ix2 (i 0) k) * w (ix2 (i 1) k)

/-- Row `b` added to every row of `a`, then the maximum with `z` entry by entry. -/
def biasRelu {M K : Nat} (z : EReal) (a : (⟨2, ![M, K]⟩ : Shape).Idx → EReal) (b : (⟨2, ![1, K]⟩ : Shape).Idx → EReal) :
    (⟨2, ![M, K]⟩ : Shape).Idx → EReal :=
  fun i => max (a i + b (ix2 (0 : Fin 1) (i 1))) z

/-- Row `b` added to every row of `a`. -/
def addRow {M K : Nat} (a : (⟨2, ![M, K]⟩ : Shape).Idx → EReal) (b : (⟨2, ![1, K]⟩ : Shape).Idx → EReal) :
    (⟨2, ![M, K]⟩ : Shape).Idx → EReal :=
  fun i => a i + b (ix2 (0 : Fin 1) (i 1))

/-- The sum over the index of a contraction of BOTH operands' second axes is `mmT`: the left operand is read along
    row `i 0`, the right operand along row `i 1`. The four hypotheses say which coordinate of the output index or of
    the contraction index each operand coordinate is. -/
theorem sum_contr_eq_mmT {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (i : (⟨2, ![M, N]⟩ : Shape).Idx) :
    ∑ q : D.contr.Idx, l (D.lhsIdx i q) * r (D.rhsIdx i q) = mmT l r i := by
  unfold mmT
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 (i 1) k := funext fun a => Fin.ext (by
    match a with
    | ⟨0, _⟩ => exact hr0 _ _
    | ⟨1, _⟩ => exact (hr1 _ _).trans hk)
  rw [el, er]
  rfl

end Cert.LibDense

end
-- ==== Proof.Region0.lean ====
/-
  The first pipelined matrix product, read as a whole array. The grid has 32 points; point t stages rows
  512 t .. 512 t + 511 of the left operand [16384, 1024], the whole right operand [3072, 1024], multiplies the row
  block by the transpose of the right operand, and writes rows 512 t .. 512 t + 511 of the result [16384, 3072].
  Entry (r, e) of a block's product is the sum over k of left (r, k) * right (e, k), and row r of block t is row
  512 t + r of the array, so the 32 blocks are the blocks of ONE array: left times right transposed.
-/
import proofs.«118528_j4767413698818_2_alg».proof.Proof.Gen.KernelIdeal.Frame
import proofs.«118528_j4767413698818_2_alg».proof.Proof.LibDense
import Idealize.ShloMosaic.Lib.Pipeline.Value
import Idealize.ShloMosaic.Lib.ValueIdx
import Idealize.ShloMosaic.PureOps.Ideal.Laws

noncomputable section

namespace Cert.KernelIdeal.Proj0

open Cert.KernelIdeal Cert.KernelIdeal.Gen Idealize.ShloMosaic Idealize.ShloMosaic.TcCoe Idealize.SL.Sem
open Idealize.ShloMosaic.Pipeline (Dat)
open Idealize.ShloMosaic.ValueIdx Cert.LibDense

variable (V : (c : Dev nD) → (b : Ref sig .tc) → Buf (Elt Ideal) ((c : Thread nD τ).loc b))

theorem hz : (![0, 0] : Fin 2 → Nat) = fun _ => 0 := funext fun a => by fin_cases a <;> rfl

/-- The body's stored value: the row block times the transpose of the right operand (the changes of float format
    are the identity, the accumulator is zero). -/
theorem pay_eq (x0 : Vec Ideal S512x1024 .f32) (x1 : Vec Ideal S3072x1024 .bf16) :
    k0_pay1 (F := Ideal) x0 x1 = mmT (M := 512) (K := 1024) (N := 3072) x0 x1 := by
  funext j
  unfold k0_pay1
  simp only [shapeCast_self]
  refine (Ideal.matmul_constant_zero_apply (φ₁ := .bf16) (φ₂ := .bf16) dot_S512x1024_S3072x1024_S512x3072_1_1_0_0_n_n none
    (truncf .bf16 (x0 : FVec Ideal S512x1024 .f32) bitsLt_bf16_f32) (x1 : FVec Ideal S3072x1024 .bf16) j).trans ?_
  rw [show (truncf .bf16 (x0 : FVec Ideal S512x1024 .f32) bitsLt_bf16_f32 : FVec Ideal S512x1024 .bf16) = x0 from rfl]
  exact sum_contr_eq_mmT (M := 512) (K := 1024) (N := 3072) dot_S512x1024_S3072x1024_S512x3072_1_1_0_0_n_n rfl rfl
    (fun i q => by
      unfold DotDims.lhsIdx
      rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
      rfl)
    (fun i q => dot_S512x1024_S3072x1024_S512x3072_1_1_0_0_n_n.lhsIdx_val_of_single rfl i q)
    (fun i q => by
      unfold DotDims.rhsIdx
      rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
      rfl)
    (fun i q => dot_S512x1024_S3072x1024_S512x3072_1_1_0_0_n_n.rhsIdx_val_of_single rfl i q)
    _ _ j

/-- The printed index maps over the grid: the left operand's and the result's row block is the point, every other
    block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Two products agree at a pair of entries when the rows they read agree. -/
theorem mmT_congr {M M' K N N' : Nat} (a : (⟨2, ![M, K]⟩ : Shape).Idx → EReal) (w : (⟨2, ![N, K]⟩ : Shape).Idx → EReal)
    (A : (⟨2, ![M', K]⟩ : Shape).Idx → EReal) (W : (⟨2, ![N', K]⟩ : Shape).Idx → EReal)
    (j : (⟨2, ![M, N]⟩ : Shape).Idx) (i : (⟨2, ![M', N']⟩ : Shape).Idx)
    (ha : ∀ k : Fin K, a (ix2 (j 0) k) = A (ix2 (i 0) k)) (hw : ∀ k : Fin K, w (ix2 (j 1) k) = W (ix2 (i 1) k)) :
    mmT a w j = mmT A W i := by
  unfold mmT
  exact Finset.sum_congr rfl fun k _ => by rw [ha k, hw k]

/-- What point t writes back is block t of the whole product. -/
theorem flushed_eq (c : Dev nD) (t : Fin cfg0.N) :
    (dat0 V c).flushed 2 t = ((cfg0.win 2).blk t).view.read (Elt Ideal)
      (mmT (M := 16384) (K := 1024) (N := 3072) (V c main_v0) (V c main_v1)) := by
  show (cfg0.win 2).cut (grid0.coords t) ((dat0 V c).after 2 t) = _
  rw [after0_2]
  unfold out0_2
  rw [View.canon_unit_zero hz]
  simp only [View.ld_unit_zero (S := S512x1024) hz, View.ld_unit_zero (S := S3072x1024) hz]
  rw [pay_eq]
  obtain ⟨e0, e1, e2, e3, e4, e5⟩ := idx_facts t
  funext j
  refine mmT_congr (M := 512) (M' := 16384) (K := 1024) (N := 3072) (N' := 3072) _ _ _ _ j _ (fun k => ?_) (fun k => ?_)
  · show V c main_v0 (((cfg0.win 0).blk t).view.emb (ix2 (j 0) k)) = _
    refine congrArg (V c main_v0) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  · show V c main_v1 (((cfg0.win 1).blk t).view.emb (ix2 (j 1) k)) = _
    refine congrArg (V c main_v1) (funext fun a => Fin.ext ?_)
    match a with
    | ⟨0, _⟩ => show win0_1.index t (0 : Fin 2) * 3072 + 1 * (j 1).val = win0_2.index t (1 : Fin 2) * 3072 + 1 * (j 1).val; omega
    | ⟨1, _⟩ => show win0_1.index t (1 : Fin 2) * 1024 + 1 * k.val = k.val; omega

/-- An index of the result is in point t's block iff each coordinate is in the block's range on its axis. -/
theorem mem_blk (t : Fin cfg0.N) (i : S16384x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v2).slice (win0_2.rect t)).set ↔ _
  rw [View.set_slice_whole, Rect.mem_set_unit]
  exact Iff.rfl

/-- Row r of the result lies in the block of point r / 512. -/
theorem cover (i : S16384x3072.Idx) : ∃ t : Fin cfg0.N, (cfg0.win 2).flush t = true ∧ i ∈ ((cfg0.win 2).blk t).view.set := by
  have hi0 : (i 0).val < 16384 := (i 0).isLt
  have hi1 : (i 1).val < 3072 := (i 1).isLt
  have hN : cfg0.N = 32 := N_0
  refine ⟨⟨(i 0).val / 512, by rw [hN]; omega⟩, flush0_2 _, ?_⟩
  rw [mem_blk]
  obtain ⟨e0, e1, e2, e3, e4, e5⟩ := idx_facts ⟨(i 0).val / 512, by rw [hN]; omega⟩
  intro a
  match a with
  | ⟨0, _⟩ => show win0_2.index _ (0 : Fin 2) * 512 ≤ (i 0).val ∧ (i 0).val < win0_2.index _ (0 : Fin 2) * 512 + 512; rw [e4]; show (i 0).val / 512 * 512 ≤ (i 0).val ∧ (i 0).val < (i 0).val / 512 * 512 + 512; omega
  | ⟨1, _⟩ => show win0_2.index _ (1 : Fin 2) * 3072 ≤ (i 1).val ∧ (i 1).val < win0_2.index _ (1 : Fin 2) * 3072 + 3072; rw [e5]; omega

/-- After the region the result array is the left operand times the right operand transposed, as the region found them. -/
theorem final (c : Dev nD) :
    (dat0 V c).arrAt 2 cfg0.N = mmT (M := 16384) (K := 1024) (N := 3072) (V c main_v0) (V c main_v1) :=
  (dat0 V c).arrAt_eq_of_cover 2 _ (fun t _ => flushed_eq V c t) cover

end Cert.KernelIdeal.Proj0

end
-- ==== Proof.Region1.lean ====
/-
  The second pipelined matrix product with its bias row, read as a whole array. The grid has 32 points; point t
  stages rows 512 t .. 512 t + 511 of the left operand [16384, 1024], the whole right operand [1024, 1024] and the
  bias row [1, 1024], multiplies the row block by the transpose of the right operand, adds the bias row to every row,
  and writes rows 512 t .. 512 t + 511 of the result [16384, 1024]. The 32 blocks are the blocks of ONE array:
  left times right transposed, plus the bias row on every row.
-/
import proofs.«118528_j4767413698818_2_alg».proof.Proof.Gen.KernelIdeal.Frame
import proofs.«118528_j4767413698818_2_alg».proof.Proof.LibDense
import Idealize.ShloMosaic.Lib.Pipeline.Value
import Idealize.ShloMosaic.Lib.ValueIdx
import Idealize.ShloMosaic.PureOps.Ideal.Laws

noncomputable section

namespace Cert.KernelIdeal.Proj1

open Cert.KernelIdeal Cert.KernelIdeal.Gen Idealize.ShloMosaic Idealize.ShloMosaic.TcCoe Idealize.SL.Sem
open Idealize.ShloMosaic.Pipeline (Dat)
open Idealize.ShloMosaic.ValueIdx Cert.LibDense

variable (V : (c : Dev nD) → (b : Ref sig .tc) → Buf (Elt Ideal) ((c : Thread nD τ).loc b))

theorem hz : (![0, 0] : Fin 2 → Nat) = fun _ => 0 := funext fun a => by fin_cases a <;> rfl

/-- The body's stored value: the row block times the transpose of the right operand, plus the bias row on every row. -/
theorem pay_eq (x0 : Vec Ideal S512x1024 .bf16) (x1 : Vec Ideal S1024x1024 .bf16) (x2 : Vec Ideal S1x1024 .f32) :
    k1_pay1 (F := Ideal) x0 x1 x2 = addRow (M := 512) (K := 1024) (mmT (M := 512) (K := 1024) (N := 1024) x0 x1) x2 := by
  funext j
  unfold k1_pay1
  simp only [shapeCast_self]
  refine (addf_apply _ _ j).trans ?_
  unfold addRow
  refine congrArg₂ (· + ·) ?_ ?_
  · refine (Ideal.matmul_constant_zero_apply (φ₁ := .bf16) (φ₂ := .bf16) dot_S512x1024_S1024x1024_S512x1024_1_1_0_0_n_n none
      (x0 : FVec Ideal S512x1024 .bf16) (x1 : FVec Ideal S1024x1024 .bf16) j).trans ?_
    exact sum_contr_eq_mmT (M := 512) (K := 1024) (N := 1024) dot_S512x1024_S1024x1024_S512x1024_1_1_0_0_n_n rfl rfl
      (fun i q => by
        unfold DotDims.lhsIdx
        rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
        rfl)
      (fun i q => dot_S512x1024_S1024x1024_S512x1024_1_1_0_0_n_n.lhsIdx_val_of_single rfl i q)
      (fun i q => by
        unfold DotDims.rhsIdx
        rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
        rfl)
      (fun i q => dot_S512x1024_S1024x1024_S512x1024_1_1_0_0_n_n.rhsIdx_val_of_single rfl i q)
      _ _ j
  · exact broadcastTo_apply x2 broadcasts_S1x1024_S512x1024 j (ix2 (0 : Fin 1) (j 1)) (fun a => match a with
      | ⟨0, _⟩ => by show 0 = if (1 : Nat) = 1 then 0 else (j 0).val; rw [if_pos rfl]
      | ⟨1, _⟩ => by show (j 1).val = if (1024 : Nat) = 1 then 0 else (j 1).val; rw [if_neg (by decide)])

/-- The printed index maps over the grid: the left operand's and the result's row block is the point, every other
    block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Two biased products agree at a pair of entries when the rows and the bias entry they read agree. -/
theorem addRow_mmT_congr {M M' K N : Nat} (a : (⟨2, ![M, K]⟩ : Shape).Idx → EReal) (w : (⟨2, ![N, K]⟩ : Shape).Idx → EReal)
    (b : (⟨2, ![1, N]⟩ : Shape).Idx → EReal)
    (A : (⟨2, ![M', K]⟩ : Shape).Idx → EReal) (W : (⟨2, ![N, K]⟩ : Shape).Idx → EReal) (B : (⟨2, ![1, N]⟩ : Shape).Idx → EReal)
    (j : (⟨2, ![M, N]⟩ : Shape).Idx) (i : (⟨2, ![M', N]⟩ : Shape).Idx)
    (ha : ∀ k : Fin K, a (ix2 (j 0) k) = A (ix2 (i 0) k)) (hw : ∀ k : Fin K, w (ix2 (j 1) k) = W (ix2 (i 1) k))
    (hb : b (ix2 (0 : Fin 1) (j 1)) = B (ix2 (0 : Fin 1) (i 1))) :
    addRow (mmT a w) b j = addRow (mmT A W) B i := by
  unfold addRow mmT
  rw [hb]
  exact congrArg (· + _) (Finset.sum_congr rfl fun k _ => by rw [ha k, hw k])

/-- What point t writes back is block t of the whole biased product. -/
theorem flushed_eq (c : Dev nD) (t : Fin cfg1.N) :
    (dat1 V c).flushed 3 t = ((cfg1.win 3).blk t).view.read (Elt Ideal)
      (addRow (M := 16384) (K := 1024) (mmT (M := 16384) (K := 1024) (N := 1024) (V c main_v32) (V c main_v33)) (V c main_v34)) := by
  show (cfg1.win 3).cut (grid1.coords t) ((dat1 V c).after 3 t) = _
  rw [after1_3]
  unfold out1_3
  rw [View.canon_unit_zero hz]
  simp only [View.ld_unit_zero (S := S512x1024) hz, View.ld_unit_zero (S := S1024x1024) hz, View.ld_unit_zero (S := S1x1024) hz]
  rw [pay_eq]
  obtain ⟨e0, e1, e2, e3, e4, e5, e6, e7⟩ := idx_facts t
  funext j
  refine addRow_mmT_congr (M := 512) (M' := 16384) (K := 1024) (N := 1024) _ _ _ _ _ _ j _ (fun k => ?_) (fun k => ?_) ?_
  · show V c main_v32 (((cfg1.win 0).blk t).view.emb (ix2 (j 0) k)) = _
    refine congrArg (V c main_v32) (funext fun a => Fin.ext ?_)
    match a with
    | ⟨0, _⟩ => show win1_0.index t (0 : Fin 2) * 512 + 1 * (j 0).val = win1_3.index t (0 : Fin 2) * 512 + 1 * (j 0).val; omega
    | ⟨1, _⟩ => show win1_0.index t (1 : Fin 2) * 1024 + 1 * k.val = k.val; omega
  · show V c main_v33 (((cfg1.win 1).blk t).view.emb (ix2 (j 1) k)) = _
    refine congrArg (V c main_v33) (funext fun a => Fin.ext ?_)
    match a with
    | ⟨0, _⟩ => show win1_1.index t (0 : Fin 2) * 1024 + 1 * (j 1).val = win1_3.index t (1 : Fin 2) * 1024 + 1 * (j 1).val; omega
    | ⟨1, _⟩ => show win1_1.index t (1 : Fin 2) * 1024 + 1 * k.val = k.val; omega
  · show V c main_v34 (((cfg1.win 2).blk t).view.emb (ix2 (0 : Fin 1) (j 1))) = _
    refine congrArg (V c main_v34) (funext fun a => Fin.ext ?_)
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega

/-- An index of the result is in point t's block iff each coordinate is in the block's range on its axis. -/
theorem mem_blk (t : Fin cfg1.N) (i : S16384x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v35).slice (win1_3.rect t)).set ↔ _
  rw [View.set_slice_whole, Rect.mem_set_unit]
  exact Iff.rfl

/-- Row r of the result lies in the block of point r / 512. -/
theorem cover (i : S16384x1024.Idx) : ∃ t : Fin cfg1.N, (cfg1.win 3).flush t = true ∧ i ∈ ((cfg1.win 3).blk t).view.set := by
  have hi0 : (i 0).val < 16384 := (i 0).isLt
  have hi1 : (i 1).val < 1024 := (i 1).isLt
  have hN : cfg1.N = 32 := N_1
  refine ⟨⟨(i 0).val / 512, by rw [hN]; omega⟩, flush1_3 _, ?_⟩
  rw [mem_blk]
  obtain ⟨e0, e1, e2, e3, e4, e5, e6, e7⟩ := idx_facts ⟨(i 0).val / 512, by rw [hN]; omega⟩
  intro a
  match a with
  | ⟨0, _⟩ => show win1_3.index _ (0 : Fin 2) * 512 ≤ (i 0).val ∧ (i 0).val < win1_3.index _ (0 : Fin 2) * 512 + 512; rw [e6]; show (i 0).val / 512 * 512 ≤ (i 0).val ∧ (i 0).val < (i 0).val / 512 * 512 + 512; omega
  | ⟨1, _⟩ => show win1_3.index _ (1 : Fin 2) * 1024 ≤ (i 1).val ∧ (i 1).val < win1_3.index _ (1 : Fin 2) * 1024 + 1024; rw [e7]; omega

/-- After the region the result array is the left operand times the right operand transposed plus the bias row, as
    the region found them. -/
theorem final (c : Dev nD) :
    (dat1 V c).arrAt 3 cfg1.N
      = addRow (M := 16384) (K := 1024) (mmT (M := 16384) (K := 1024) (N := 1024) (V c main_v32) (V c main_v33)) (V c main_v34) :=
  (dat1 V c).arrAt_eq_of_cover 3 _ (fun t _ => flushed_eq V c t) cover

end Cert.KernelIdeal.Proj1

end
-- ==== Proof.MixK.lean ====
/-
  The kernel program's host operations between its two matrix products, as ONE function of the first product re-laid
  as [4, 4096, 3072]: the three thirds of the last axis are re-laid as [4, 16, 4096, 64] and transposed to
  [4, 4096, 16, 64]; the scores are the products of the first two over the last axis, scaled by the literal 1/8; a
  softmax over the last axis of the [4, 4096, 16, 16] scores (maximum subtracted, exponential, divided by the sum);
  the probabilities times the third; transposed back and re-laid as [4, 4096, 1024]. The changes of float format in
  between are the identity on the extended reals.
-/
import proofs.«118528_j4767413698818_2_alg».proof.KernelIdeal
import proofs.«118528_j4767413698818_2_alg».proof.Proof.Gen.KernelIdeal
import Idealize.ShloMosaic.PureOps.Ideal

noncomputable section

namespace Cert.HeadMix

open Idealize.ShloMosaic
open Cert.KernelIdeal Cert.KernelIdeal.Facts₀

/-- From the projected array re-laid as [4, 4096, 3072] to the mixed heads as [4, 4096, 1024]. -/
def mixK (v3 : FVec Ideal S4x4096x3072 .bf16) : FVec Ideal S4x4096x1024 .bf16 :=
  have v4 : FVec Ideal S4x4096x1024 .bf16 := extractStridedSlice S4x4096x1024 ![0, 0, 0] v3 slices_S4x4096x3072_S4x4096x1024_0_0_0
  have v5 : FVec Ideal S4x4096x1024 .bf16 := extractStridedSlice S4x4096x1024 ![0, 0, 1024] v3 slices_S4x4096x3072_S4x4096x1024_0_0_1024
  have v6 : FVec Ideal S4x4096x1024 .bf16 := extractStridedSlice S4x4096x1024 ![0, 0, 2048] v3 slices_S4x4096x3072_S4x4096x1024_0_0_2048
  have v7 : FVec Ideal S4x16x4096x64 .bf16 := shapeCast S4x16x4096x64 v4 shapeCasts_S4x4096x1024_S4x16x4096x64
  have v8 : FVec Ideal S4x4096x16x64 .bf16 := transpose S4x4096x16x64 [0, 2, 1, 3] v7 transposes_S4x16x4096x64_S4x4096x16x64_0_2_1_3
  have v9 : FVec Ideal S4x16x4096x64 .bf16 := shapeCast S4x16x4096x64 v5 shapeCasts_S4x4096x1024_S4x16x4096x64
  have v10 : FVec Ideal S4x4096x16x64 .bf16 := transpose S4x4096x16x64 [0, 2, 1, 3] v9 transposes_S4x16x4096x64_S4x4096x16x64_0_2_1_3
  have v11 : FVec Ideal S4x16x4096x64 .bf16 := shapeCast S4x16x4096x64 v6 shapeCasts_S4x4096x1024_S4x16x4096x64
  have v12 : FVec Ideal S4x4096x16x64 .bf16 := transpose S4x4096x16x64 [0, 2, 1, 3] v11 transposes_S4x16x4096x64_S4x4096x16x64_0_2_1_3
  have v13 : FVec Ideal S4x4096x16x16 .f32 := Host.dotGeneral dot_S4x4096x16x64_S4x4096x16x64_S4x4096x16x16_3_3_2_2_01_01 none v8 v10
  have cst : FVec Ideal S_ .f32 := constant S_ .f32 0x3E000000#32
  have v14 : FVec Ideal S4x4096x16x16 .f32 := broadcastInDim S4x4096x16x16 ![] bcast_S_S4x4096x16x16 cst
  have v15 : FVec Ideal S4x4096x16x16 .f32 := mulf v13 v14
  have cst_0 : FVec Ideal S_ .f32 := constant S_ .f32 0xFF800000#32
  have v16 : FVec Ideal S4x4096x16 .f32 := Host.reduce FloatOps.maximumf v15 cst_0 reducesTo_S4x4096x16x16_S4x4096x16_d3 h_S_
  have cst_1 : FVec Ideal S_ .f32 := constant S_ .f32 0xFF800000#32
  have v17 : FVec Ideal S4x4096x16 .f32 := broadcastInDim S4x4096x16 ![] bcast_S_S4x4096x16 cst_1
  have v18 : FVec Ideal S4x4096x16 .f32 := maximumf v17 v16
  have v19 : FVec Ideal S4x4096x16x1 .f32 := broadcastInDim S4x4096x16x1 ![0, 1, 2] bcast_S4x4096x16_S4x4096x16x1_0_1_2 v18
  have v20 : FVec Ideal S4x4096x16x16 .f32 := broadcastInDim S4x4096x16x16 ![0, 1, 2, 3] bcast_S4x4096x16x1_S4x4096x16x16_0_1_2_3 v19
  have v21 : FVec Ideal S4x4096x16x16 .f32 := subf v15 v20
  have v22 : FVec Ideal S4x4096x16x16 .f32 := Host.exp v21
  have cst_2 : FVec Ideal S_ .f32 := constant S_ .f32 0x00000000#32
  have v23 : FVec Ideal S4x4096x16 .f32 := Host.reduceAdd v22 cst_2 reducesTo_S4x4096x16x16_S4x4096x16_d3 h_S_
  have v24 : FVec Ideal S4x4096x16x1 .f32 := broadcastInDim S4x4096x16x1 ![0, 1, 2] bcast_S4x4096x16_S4x4096x16x1_0_1_2 v23
  have v25 : FVec Ideal S4x4096x16x16 .f32 := broadcastInDim S4x4096x16x16 ![0, 1, 2, 3] bcast_S4x4096x16x1_S4x4096x16x16_0_1_2_3 v24
  have v26 : FVec Ideal S4x4096x16x16 .f32 := Host.divf v22 v25
  have v27 : FVec Ideal S4x4096x16x16 .bf16 := truncf .bf16 v26 bitsLt_bf16_f32
  have v28 : FVec Ideal S4x4096x16x64 .f32 := Host.dotGeneral dot_S4x4096x16x16_S4x4096x16x64_S4x4096x16x64_3_2_2_3_01_01 none v27 v12
  have v29 : FVec Ideal S4x4096x16x64 .bf16 := truncf .bf16 v28 bitsLt_bf16_f32
  have v30 : FVec Ideal S4x16x4096x64 .bf16 := transpose S4x16x4096x64 [0, 2, 1, 3] v29 transposes_S4x4096x16x64_S4x16x4096x64_0_2_1_3
  have v31 : FVec Ideal S4x4096x1024 .bf16 := shapeCast S4x4096x1024 v30 shapeCasts_S4x16x4096x64_S4x4096x1024
  v31

end Cert.HeadMix

end
-- ==== Proof.KernelValue.lean ====
/-
  What the kernel program's result array holds, as one function of the four arguments. Reading the program's
  segments backwards: the result is the second product's array re-laid as [4, 4096, 1024]; that array is the mixed
  heads (re-laid as [16384, 1024]) times the second weight transposed, plus the bias row; the mixed heads are the
  host operations between the products applied to the first product's array re-laid as [4, 4096, 3072]; and the first
  product's array is the input (re-laid as [16384, 1024]) times the first weight transposed. The weights' change of
  float format before each product is the identity on the extended reals.
-/
import proofs.«118528_j4767413698818_2_alg».proof.Proof.KernelRun
import proofs.«118528_j4767413698818_2_alg».proof.Proof.Region0
import proofs.«118528_j4767413698818_2_alg».proof.Proof.Region1
import proofs.«118528_j4767413698818_2_alg».proof.Proof.MixK
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.HeadMix Cert.LibDense

/-- The result array as a function of the input x, the two weights and the bias. -/
def value (x : FVec Ideal S4x4096x1024 .f32) (w : FVec Ideal S3072x1024 .f32) (wf : FVec Ideal S1024x1024 .f32)
    (b : FVec Ideal S1024 .f32) : FVec Ideal S4x4096x1024 .f32 :=
  shapeCast S4x4096x1024
    (addRow (M := 16384) (K := 1024)
      (mmT (M := 16384) (K := 1024) (N := 1024)
        (shapeCast S16384x1024
          (mixK (shapeCast S4x4096x3072
            (mmT (M := 16384) (K := 1024) (N := 3072) (shapeCast S16384x1024 x Facts₀.shapeCasts_S4x4096x1024_S16384x1024) w)
            Facts₀.shapeCasts_S16384x3072_S4x4096x3072))
          Facts₀.shapeCasts_S4x4096x1024_S16384x1024)
        wf)
      (shapeCast S1x1024 b Facts₀.shapeCasts_S1024_S1x1024))
    Facts₀.shapeCasts_S16384x1024_S4x4096x1024

section Host

variable (W : Valuation τ sig (Elt Ideal))

/-- The first stretch re-lays the input as [16384, 1024], -/
theorem host0_v0 : after (hostOps0 (F := Ideal)) W (Proc.devRef .tc main_v0)
    = shapeCast S16384x1024 (W (Proc.devRef .tc main_arg0)) Facts₀.shapeCasts_S4x4096x1024_S16384x1024 := by
  after_results; rfl
/-- changes the first weight's format (the identity), -/
theorem host0_v1 : after (hostOps0 (F := Ideal)) W (Proc.devRef .tc main_v1) = W (Proc.devRef .tc main_arg1) := by
  after_results; rfl
/-- and leaves the second weight and the bias alone. -/
theorem host0_arg2 : after (hostOps0 (F := Ideal)) W (Proc.devRef .tc main_arg2) = W (Proc.devRef .tc main_arg2) := by
  after_results
theorem host0_arg3 : after (hostOps0 (F := Ideal)) W (Proc.devRef .tc main_arg3) = W (Proc.devRef .tc main_arg3) := by
  after_results

/-- The second stretch mixes the heads of the first product's array and re-lays them as [16384, 1024], -/
theorem host1_v32 : after (hostOps1 (F := Ideal)) W (Proc.devRef .tc main_v32)
    = shapeCast S16384x1024 (mixK (shapeCast S4x4096x3072 (W (Proc.devRef .tc main_v2)) Facts₀.shapeCasts_S16384x3072_S4x4096x3072))
        Facts₀.shapeCasts_S4x4096x1024_S16384x1024 := by
  after_results_simp
  unfold mixK
  rfl
/-- changes the second weight's format (the identity), -/
theorem host1_v33 : after (hostOps1 (F := Ideal)) W (Proc.devRef .tc main_v33) = W (Proc.devRef .tc main_arg2) := by
  after_results_simp
  rfl
/-- and re-lays the bias as a row. -/
theorem host1_v34 : after (hostOps1 (F := Ideal)) W (Proc.devRef .tc main_v34)
    = shapeCast S1x1024 (W (Proc.devRef .tc main_arg3)) Facts₀.shapeCasts_S1024_S1x1024 := by
  after_results_simp
  rfl

/-- The last stretch re-lays the second product's array as [4, 4096, 1024]. -/
theorem host2_v36 : after (hostOps2 (F := Ideal)) W (Proc.devRef .tc main_v36)
    = shapeCast S4x4096x1024 (W (Proc.devRef .tc main_v35)) Facts₀.shapeCasts_S16384x1024_S4x4096x1024 := by
  after_results; rfl

end Host

variable (m : (ℓ : Loc nD τ sig) → Buf (Elt Ideal) ℓ) (ρ : Dev nD → PrngReg)

/-- The last boundary's contents at the result buffer are the function of the arguments' launch contents. -/
theorem result_eq (c : Dev nD) :
    W5 m ρ c (Proc.devRef .tc main_v36)
      = value (m ((c.tc : Thread nD τ).loc main_arg0)) (m ((c.tc : Thread nD τ).loc main_arg1))
          (m ((c.tc : Thread nD τ).loc main_arg2)) (m ((c.tc : Thread nD τ).loc main_arg3)) := by
  have a0 : V1 m ρ c main_v0 = shapeCast S16384x1024 (m ((c.tc : Thread nD τ).loc main_arg0)) Facts₀.shapeCasts_S4x4096x1024_S16384x1024 :=
    host0_v0 (W0 m ρ c)
  have a1 : V1 m ρ c main_v1 = m ((c.tc : Thread nD τ).loc main_arg1) := host0_v1 (W0 m ρ c)
  have q : W2 m ρ c (Proc.devRef .tc main_v2)
      = mmT (M := 16384) (K := 1024) (N := 3072) (V1 m ρ c main_v0) (V1 m ρ c main_v1) :=
    (W2_arr m ρ c 2).trans (Proj0.final (V1 m ρ) c)
  have k2 : W2 m ρ c (Proc.devRef .tc main_arg2) = m ((c.tc : Thread nD τ).loc main_arg2) :=
    (W2_of_ne m ρ c main_arg2 (by decide)).trans (host0_arg2 (W0 m ρ c))
  have k3 : W2 m ρ c (Proc.devRef .tc main_arg3) = m ((c.tc : Thread nD τ).loc main_arg3) :=
    (W2_of_ne m ρ c main_arg3 (by decide)).trans (host0_arg3 (W0 m ρ c))
  have b32 : V3 m ρ c main_v32 = shapeCast S16384x1024 (mixK (shapeCast S4x4096x3072 (W2 m ρ c (Proc.devRef .tc main_v2)) Facts₀.shapeCasts_S16384x3072_S4x4096x3072))
        Facts₀.shapeCasts_S4x4096x1024_S16384x1024 := host1_v32 (W2 m ρ c)
  have b33 : V3 m ρ c main_v33 = W2 m ρ c (Proc.devRef .tc main_arg2) := host1_v33 (W2 m ρ c)
  have b34 : V3 m ρ c main_v34 = shapeCast S1x1024 (W2 m ρ c (Proc.devRef .tc main_arg3)) Facts₀.shapeCasts_S1024_S1x1024 :=
    host1_v34 (W2 m ρ c)
  have o : W4 m ρ c (Proc.devRef .tc main_v35)
      = addRow (M := 16384) (K := 1024) (mmT (M := 16384) (K := 1024) (N := 1024) (V3 m ρ c main_v32) (V3 m ρ c main_v33)) (V3 m ρ c main_v34) :=
    (W4_arr m ρ c 3).trans (Proj1.final (V3 m ρ) c)
  have z : W5 m ρ c (Proc.devRef .tc main_v36)
      = shapeCast S4x4096x1024 (W4 m ρ c (Proc.devRef .tc main_v35)) Facts₀.shapeCasts_S16384x1024_S4x4096x1024 := host2_v36 (W4 m ρ c)
  rw [z, o, b32, b33, b34, q, a0, a1, k2, k3]
  rfl

/-- The kernel program's run, with its result array at the function of the arguments. -/
theorem run : θ_run defs (onTc (τ := τ) (main (F := Ideal))) ⟨m, fun _ => 0, ρ⟩ (fun r => ∀ c : Dev nD,
      r.2.mem ((c.tc : Thread nD τ).loc main_v36)
        = value (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_result m ρ)

end Cert.KernelIdeal.Whole

end
-- ==== Proof.Scale.lean ====
/-
  The float literals of the softmax scale, as the extended reals their patterns denote, and the one arithmetic fact
  the two programs differ by: the reference's scale 1 / sqrt 64 is the kernel's literal 1/8.
-/
import Idealize.ShloMosaic.PureOps.Ideal

noncomputable section

namespace Cert.Scale

open Idealize.ShloMosaic

/-- The pattern of 1.0 denotes 1. -/
theorem ofBits_one : Ideal.ofBits .f32 0x3F800000#32 = ((1 : ℝ) : EReal) := by
  simp [Ideal.ofBits, Ideal.ieee, -EReal.coe_mul]; norm_num

/-- The pattern of 64.0 denotes 64. -/
theorem ofBits_64 : Ideal.ofBits .f32 0x42800000#32 = ((64 : ℝ) : EReal) := by
  simp [Ideal.ofBits, Ideal.ieee, -EReal.coe_mul]; norm_num

/-- The pattern of 0.125 denotes 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num, Real.sqrt_sq (by norm_num)]

/-- 1 / sqrt 64, computed on the extended reals from the two literals, is the literal 1/8. -/
theorem one_div_sqrt_64 :
    Ideal.div (Ideal.ofBits .f32 0x3F800000#32) (Ideal.sqrt (Ideal.ofBits .f32 0x42800000#32)) = Ideal.ofBits .f32 0x3E000000#32 := by
  rw [ofBits_one, ofBits_64, ofBits_eighth, Ideal.sqrt_coe, if_neg (by norm_num), sqrt_64,
    Ideal.div_coe (by norm_num : (8 : ℝ) ≠ 0), ← EReal.coe_mul, one_mul]

end Cert.Scale

end
-- ==== Proof.HeadMix.lean ====
/-
  The head-mixing attention between the two projections is the same function in the two programs. The kernel's
  program writes the softmax scale as the literal 1/8 and changes float format in between (the identity on the
  extended reals); the reference computes the scale as 1 / sqrt 64 from the literals 1 and 64. Since sqrt 64 = 8 and
  1 / 8 is that literal, the two chains of operations, applied to the same projected array, give the same mixed heads.
-/
import proofs.«118528_j4767413698818_2_alg».proof.ReferenceIdeal
import proofs.«118528_j4767413698818_2_alg».proof.Proof.Gen.ReferenceIdeal
import proofs.«118528_j4767413698818_2_alg».proof.Proof.Gen.ReferenceIdeal.Read
import proofs.«118528_j4767413698818_2_alg».proof.Proof.MixK
import proofs.«118528_j4767413698818_2_alg».proof.Proof.Scale
import Idealize.ShloMosaic.PureOps.Ideal.Laws

noncomputable section

namespace Cert.HeadMix

open Idealize.ShloMosaic

/-- The reference's scale, 1 / sqrt 64 computed from the two literals, is the kernel's literal 1/8, as scalars. -/
theorem scale_eq :
    (Host.divf (constant (F := Ideal) Cert.ReferenceIdeal.S_ .f32 0x3F800000#32)
        (Host.sqrt (constant (F := Ideal) Cert.ReferenceIdeal.S_ .f32 0x42800000#32)) : FVec Ideal Cert.ReferenceIdeal.S_ .f32)
      = constant Cert.ReferenceIdeal.S_ .f32 0x3E000000#32 :=
  funext fun _ => Cert.Scale.one_div_sqrt_64

set_option maxHeartbeats 400000 in
/-- Applied to the reference's projected array, the kernel program's operations between its projections give the
    reference's mixed heads: the two chains are one function once the changes of format are dropped and the scale
    is read as 1/8. -/
theorem mixK_eq (x0 : (⟨Cert.ReferenceIdeal.S4x4096x1024, .f32⟩ : BufTy).Contents (Elt Ideal))
    (x1 : (⟨Cert.ReferenceIdeal.S3072x1024, .f32⟩ : BufTy).Contents (Elt Ideal)) :
    mixK (Cert.ReferenceIdeal.Read.val_main_v0 (F := Ideal) x0 x1) = Cert.ReferenceIdeal.Read.val_main_v28 (F := Ideal) x0 x1 := by
  unfold Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_cst_3 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_cst_2 Cert.ReferenceIdeal.Read.val_main_v15 Cert.ReferenceIdeal.Read.val_main_cst_1 Cert.ReferenceIdeal.Read.val_main_v14 Cert.ReferenceIdeal.Read.val_main_v13 Cert.ReferenceIdeal.Read.val_main_v12 Cert.ReferenceIdeal.Read.val_main_v11 Cert.ReferenceIdeal.Read.val_main_cst_0 Cert.ReferenceIdeal.Read.val_main_v10 Cert.ReferenceIdeal.Read.val_main_cst Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1
  generalize Cert.ReferenceIdeal.Read.val_main_v0 (F := Ideal) x0 x1 = q
  rw [scale_eq]
  unfold mixK
  rfl

end Cert.HeadMix

end
-- ==== Proof.LibRelay.lean ====
/-
  Re-laying the leading two axes of a three-axis array as one, read at coordinates.

  A [B, R, K] array re-laid as [M, K] (row-major order kept, so M = B * R) holds at (r, k) the entry (b, n, k) whenever
  r = b * R + n; re-laid back, [M, K] as [B, R, K], it holds at (b, n, k) the entry (r, k). A vector [K] re-laid as the
  one-row matrix [1, K] holds at (0, k) the entry k.
-/
import Idealize.ShloMosaic.Lib.Pipeline.Value
import Idealize.ShloMosaic.Lib.ValueIdx

noncomputable section

namespace Cert.LibRelay

open Idealize.ShloMosaic Idealize.ShloMosaic.ValueIdx

/-- [B, R, K] re-laid as [M, K], at row r = b * R + n and column k, is the entry (b, n, k). -/
theorem flat_apply {α : Type} {B R K M : Nat} (a : (⟨3, ![B, R, K]⟩ : Shape).Idx → α)
    (h : (⟨3, ![B, R, K]⟩ : Shape).ShapeCasts ⟨2, ![M, K]⟩) (b : Fin B) (n : Fin R) (k : Fin K) (r : Fin M)
    (hr : r.val = b.val * R + n.val) :
    shapeCast ⟨2, ![M, K]⟩ a h (ix2 r k) = a (ix3 b n k) :=
  shapeCast_apply a h (ix2 r k) (ix3 b n k) (by
    rw [Shape.rowMajor_val_three, Shape.rowMajor_val_two]
    show (b.val * R + n.val) * K + k.val = r.val * K + k.val
    rw [hr])

/-- [M, K] re-laid as [B, R, K], at (b, n, k), is the entry at row r = b * R + n and column k. -/
theorem unflat_apply {α : Type} {B R K M : Nat} (y : (⟨2, ![M, K]⟩ : Shape).Idx → α)
    (h : (⟨2, ![M, K]⟩ : Shape).ShapeCasts ⟨3, ![B, R, K]⟩) (b : Fin B) (n : Fin R) (k : Fin K) (r : Fin M)
    (hr : r.val = b.val * R + n.val) :
    shapeCast ⟨3, ![B, R, K]⟩ y h (ix3 b n k) = y (ix2 r k) :=
  shapeCast_apply y h (ix3 b n k) (ix2 r k) (by
    rw [Shape.rowMajor_val_three, Shape.rowMajor_val_two]
    show r.val * K + k.val = (b.val * R + n.val) * K + k.val
    rw [hr])

/-- A vector [K] re-laid as the one-row matrix [1, K], at (0, k), is the entry k. -/
theorem row_apply {α : Type} {K : Nat} (v : (⟨1, ![K]⟩ : Shape).Idx → α)
    (h : (⟨1, ![K]⟩ : Shape).ShapeCasts ⟨2, ![1, K]⟩) (k : Fin K) :
    shapeCast ⟨2, ![1, K]⟩ v h (ix2 (0 : Fin 1) k) = v (ix1 k) :=
  shapeCast_apply v h (ix2 (0 : Fin 1) k) (ix1 k) (by
    rw [Shape.rowMajor_val_one, Shape.rowMajor_val_two]
    show k.val = 0 * K + k.val
    omega)

end Cert.LibRelay

end
-- ==== Proof.Bridge.lean ====
/-
  The kernel program's result and the reference's result are one function of the arguments.

  Both compute: the input [4, 4096, 1024] times the first weight [3072, 1024] transposed, over the last axis; the
  head-mixing attention of that [4, 4096, 3072] array (one function in the two programs); the mixed heads
  [4, 4096, 1024] times the second weight [1024, 1024] transposed, plus the bias on the last axis. The kernel program
  does the two products on the arrays re-laid as 16384 rows, so at (b, n, e) it reads row 4096 b + n, which is the
  entry (b, n, .) of the array it re-laid; the reference contracts the last axis of the three-axis array directly.
  Entry by entry both are the same sum over k of left (b, n, k) * weight (e, k).
-/
import proofs.«118528_j4767413698818_2_alg».proof.Proof.KernelValue
import proofs.«118528_j4767413698818_2_alg».proof.Proof.HeadMix
import proofs.«118528_j4767413698818_2_alg».proof.Proof.LibRelay

noncomputable section

namespace Cert.Bridge

open Idealize.ShloMosaic Idealize.ShloMosaic.ValueIdx Cert.LibDense Cert.LibRelay Cert.HeadMix
open Cert.ReferenceIdeal.Read

/-- The first product of the input re-laid as rows, re-laid back as [4, 4096, 3072], is the reference's projection. -/
theorem proj_eq (x : FVec Ideal Cert.KernelIdeal.S4x4096x1024 .f32) (w : FVec Ideal Cert.KernelIdeal.S3072x1024 .f32) :
    shapeCast Cert.KernelIdeal.S4x4096x3072
        (mmT (M := 16384) (K := 1024) (N := 3072)
          (shapeCast Cert.KernelIdeal.S16384x1024 x Cert.KernelIdeal.Facts₀.shapeCasts_S4x4096x1024_S16384x1024) w)
        Cert.KernelIdeal.Facts₀.shapeCasts_S16384x3072_S4x4096x3072
      = val_main_v0 (F := Ideal) x w := by
  funext i
  rw [val_main_v0_apply]
  obtain ⟨b, n, e, rfl⟩ : ∃ (b : Fin 4) (n : Fin 4096) (e : Fin 3072), i = ix3 b n e := ⟨i 0, i 1, i 2, eq_ix3 i⟩
  have hr : b.val * 4096 + n.val < 16384 := by omega
  refine (unflat_apply (B := 4) (R := 4096) (K := 3072) (M := 16384) _ _ b n e ⟨b.val * 4096 + n.val, hr⟩ rfl).trans ?_
  unfold mmT
  refine Finset.sum_congr rfl fun k _ => congrArg₂ (· * ·) ?_ ?_
  · refine (flat_apply (B := 4) (R := 4096) (K := 1024) (M := 16384) x _ b n k ⟨b.val * 4096 + n.val, hr⟩ rfl).trans ?_
    exact congrArg x (funext fun a => match a with | ⟨0, _⟩ => rfl | ⟨1, _⟩ => rfl | ⟨2, _⟩ => rfl)
  · exact congrArg w (funext fun a => match a with | ⟨0, _⟩ => rfl | ⟨1, _⟩ => rfl)

/-- The second product of the reference's mixed heads re-laid as rows, plus the bias row, re-laid back as
    [4, 4096, 1024], is the reference's result. -/
theorem out_eq (x0 : FVec Ideal Cert.KernelIdeal.S4x4096x1024 .f32) (x1 : FVec Ideal Cert.KernelIdeal.S3072x1024 .f32)
    (x2 : FVec Ideal Cert.KernelIdeal.S1024x1024 .f32) (x3 : FVec Ideal Cert.KernelIdeal.S1024 .f32) :
    shapeCast Cert.KernelIdeal.S4x4096x1024
        (addRow (M := 16384) (K := 1024)
          (mmT (M := 16384) (K := 1024) (N := 1024)
            (shapeCast Cert.KernelIdeal.S16384x1024 (val_main_v28 (F := Ideal) x0 x1)
              Cert.KernelIdeal.Facts₀.shapeCasts_S4x4096x1024_S16384x1024) x2)
          (shapeCast Cert.KernelIdeal.S1x1024 x3 Cert.KernelIdeal.Facts₀.shapeCasts_S1024_S1x1024))
        Cert.KernelIdeal.Facts₀.shapeCasts_S16384x1024_S4x4096x1024
      = val_main_v32 (F := Ideal) x0 x1 x2 x3 := by
  funext i
  rw [val_main_v32_apply, val_main_v29_apply, val_main_v31_apply, val_main_v30_apply, Ideal.addf_def]
  generalize val_main_v28 (F := Ideal) x0 x1 = a
  obtain ⟨b, n, e, rfl⟩ : ∃ (b : Fin 4) (n : Fin 4096) (e : Fin 1024), i = ix3 b n e := ⟨i 0, i 1, i 2, eq_ix3 i⟩
  have hr : b.val * 4096 + n.val < 16384 := by omega
  refine (unflat_apply (B := 4) (R := 4096) (K := 1024) (M := 16384) _ _ b n e ⟨b.val * 4096 + n.val, hr⟩ rfl).trans ?_
  unfold addRow mmT
  refine congrArg₂ (· + ·) (Finset.sum_congr rfl fun k _ => congrArg₂ (· * ·) ?_ ?_) ?_
  · refine (flat_apply (B := 4) (R := 4096) (K := 1024) (M := 16384) a _ b n k ⟨b.val * 4096 + n.val, hr⟩ rfl).trans ?_
    exact congrArg a (funext fun d => match d with | ⟨0, _⟩ => rfl | ⟨1, _⟩ => rfl | ⟨2, _⟩ => rfl)
  · exact congrArg x2 (funext fun d => match d with | ⟨0, _⟩ => rfl | ⟨1, _⟩ => rfl)
  · refine (row_apply (K := 1024) x3 _ e).trans ?_
    exact congrArg x3 (funext fun d => match d with | ⟨0, _⟩ => rfl)

/-- The kernel program's result, as a function of the arguments, is the reference's. -/
theorem value_eq (x : FVec Ideal Cert.KernelIdeal.S4x4096x1024 .f32) (w : FVec Ideal Cert.KernelIdeal.S3072x1024 .f32)
    (wf : FVec Ideal Cert.KernelIdeal.S1024x1024 .f32) (b : FVec Ideal Cert.KernelIdeal.S1024 .f32) :
    Cert.KernelIdeal.Whole.value x w wf b = val_main_v32 (F := Ideal) x w wf b := by
  unfold Cert.KernelIdeal.Whole.value
  rw [proj_eq, mixK_eq, out_eq]

end Cert.Bridge

end
-- ==== Proof.lean ====
/-
  The certificate of a three-stage attention layer against its jnp reference, on the extended reals.

  The program multiplies the input [4, 4096, 1024] (re-laid as 16384 rows) by the first weight transposed in a
  pipelined matrix product of 32 row blocks, mixes the 16 heads of every token on the host (scores scaled by 1/8, a
  softmax, the weighted values), and multiplies the mixed heads (again as 16384 rows) by the second weight transposed,
  adding the bias row, in a second pipelined product of 32 row blocks. The reference contracts the last axis of the
  three-axis arrays directly and computes the scale as 1 / sqrt 64.

  * The three frames: the two printings of the kernel program by their generated frame certificates, the reference's
    by its generated run with the result dropped.
  * The idealization rewrote nothing, so there is nothing to preserve.
  * Equal results: the kernel program's result array is one function of the arguments (Proof/KernelValue.lean, from
    the two products read as whole arrays in Proof/Region0.lean and Proof/Region1.lean and the host operations
    between them), the reference's is its generated run's term, and the two are the same function entry by entry
    (Proof/Bridge.lean): row 4096 b + n of a re-laid array is its entry (b, n, .), the head mixing is one function
    of the projected array in both programs because sqrt 64 = 8 (Proof/HeadMix.lean), and a change of float format
    is the identity. No step needs the inputs to be finite.
-/
import proofs.«118528_j4767413698818_2_alg».proof.Defs
import proofs.«118528_j4767413698818_2_alg».proof.Proof.Gen.Kernel
import proofs.«118528_j4767413698818_2_alg».proof.Proof.Gen.Kernel.Skeleton
import proofs.«118528_j4767413698818_2_alg».proof.Proof.Gen.Kernel.Launch
import proofs.«118528_j4767413698818_2_alg».proof.Proof.Gen.Kernel.Points
import proofs.«118528_j4767413698818_2_alg».proof.Proof.Gen.Kernel.Frame
import proofs.«118528_j4767413698818_2_alg».proof.Proof.Gen.KernelIdeal
import proofs.«118528_j4767413698818_2_alg».proof.Proof.Gen.KernelIdeal.Skeleton
import proofs.«118528_j4767413698818_2_alg».proof.Proof.Gen.KernelIdeal.Launch
import proofs.«118528_j4767413698818_2_alg».proof.Proof.Gen.KernelIdeal.Points
import proofs.«118528_j4767413698818_2_alg».proof.Proof.Gen.KernelIdeal.Frame
import proofs.«118528_j4767413698818_2_alg».proof.Proof.Gen.ReferenceIdeal
import proofs.«118528_j4767413698818_2_alg».proof.Proof.Gen.ReferenceIdeal.Run
import proofs.«118528_j4767413698818_2_alg».proof.Proof.Gen.ReferenceIdeal.Read
import proofs.«118528_j4767413698818_2_alg».proof.Proof.Gen.Pre_finite_inputs
import proofs.«118528_j4767413698818_2_alg».proof.Proof.Bridge
import Idealize.ShloMosaic.Adequacy
import Idealize.ShloMosaic.Init

noncomputable section

namespace Cert.Proof

open Idealize.ShloMosaic Idealize.SL.Sem

/-- The kernel program as printed runs, faults nowhere and leaves its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel program's at
    its function of the arguments, the reference's at its run's term, and the two are one function. -/
theorem algebraic : Cert.algebraic_KernelIdeal_ReferenceIdeal := by
  intro m ρ m' ρ' _ hagree
  refine ⟨fun c => Cert.KernelIdeal.Whole.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2]
  exact (Cert.Bridge.value_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
